-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S64x4096 : Shape := ⟨2, ![64, 4096]⟩
abbrev S64 : Shape := ⟨1, ![64]⟩
abbrev S64x1 : Shape := ⟨2, ![64, 1]⟩
abbrev S1x4096 : Shape := ⟨2, ![1, 4096]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S4096x4096, .bf16⟩
  | .hbm, ⟨7, _⟩ => ⟨S16384x4096, .f32⟩
  | .hbm, ⟨8, _⟩ => ⟨S4x4096x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S4096, .f32⟩
  | .local _ .vmem, ⟨4, _⟩ => ⟨S4096, .f32⟩
  | .local _ .vmem, ⟨5, _⟩ => ⟨S4096, .f32⟩
  | .local _ .vmem, ⟨6, _⟩ => ⟨S64x4096, .f32⟩
  | .local _ .vmem, ⟨7, _⟩ => ⟨S64x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x4096_S16384x4096 : S4x4096x4096.ShapeCasts S16384x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S64x4096_S64 : S64x4096.Reduces [1] S64
  shapeCasts_S64_S64x1 : S64.ShapeCasts S64x1
  broadcasts_S64x1_S64x4096 : S64x1.Broadcasts S64x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S64x4096 : S1x4096.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S16384x4096_S4x4096x4096 : S16384x4096.ShapeCasts S4x4096x4096
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S16384x4096.size a
  hwx0_5 : ∀ i : grid0.Coords, EltTy.bits .f32 = 32 ∨ (Rect.block (s := S16384x4096) S64x4096.size (cc0_transform_5 i) (hinb0_5 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S1x1x4096, .f32⟩
  | .hbm, ⟨29, _⟩ => ⟨S4x4096x4096, .f32⟩
  | .hbm, ⟨30, _⟩ => ⟨S4x4096x4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S1x1x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.RowSpec.lean ====
/-
  The function both programs compute, written once on the extended reals.

  A row of 4096 features is normalised: its mean is taken off, the centred row is scaled by the reciprocal square root of
  its variance plus a small constant, then by a per-feature gain, and a per-feature shift is added. One output unit of a
  linear layer is the sum over the features of the normalised row against that unit's weight row, plus the unit's bias,
  and the result is the larger of that number and zero.

  The three numeric constants are kept as the binary32 words both programs carry (4096, the small constant added to the
  variance, and zero): the same word on both sides, never evaluated. Sums are plain finite sums, a quotient is the
  extended reals' division with its conventions at zero, and nothing here needs an entry to be finite.
-/
import Idealize.ShloMosaic.PureOps.Ideal
import Idealize.ShloMosaic.Lib.ValueIdx

noncomputable section

open scoped BigOperators

namespace Cert.NormLinear

open Idealize.ShloMosaic Idealize.ShloMosaic.ValueIdx

/-- A row of 4096 features. -/
abbrev Row : Type := Fin 4096 → EReal

/-- The row length 4096, as the binary32 word the programs divide by. -/
abbrev width : EReal := Ideal.ofBits .f32 0x45800000#32
/-- The small constant added to the variance before the reciprocal square root. -/
abbrev eps : EReal := Ideal.ofBits .f32 0x3727C5AC#32
/-- Zero, as the word the programs compare against. -/
abbrev zero : EReal := Ideal.ofBits .f32 0x00000000#32

/-- The mean of a row: its sum divided by its length. -/
def mean (r : Row) : EReal := Ideal.div (∑ k, r k) width

/-- The row with its mean taken off. -/
def centred (r : Row) : Row := fun k => r k - mean r

/-- The variance of a row: the mean of the squares of the centred row. -/
def variance (r : Row) : EReal := Ideal.div (∑ k, centred r k * centred r k) width

/-- The factor every centred entry is scaled by: the reciprocal square root of the variance plus the small constant. -/
def scale (r : Row) : EReal := Ideal.rsqrt (variance r + eps)

/-- The normalised row: centred, scaled, multiplied by the gain `γ` and shifted by `β`, feature by feature. -/
def normed (r γ β : Row) : Row := fun k => centred r k * scale r * γ k + β k

/-- One output unit: the normalised row against the unit's weight row `w`, plus its bias, clipped below at zero. -/
def unit (r γ β w : Row) (bias : EReal) : EReal := max ((∑ k, normed r γ β k * w k) + bias) zero

/-! ## The two layouts the programs use -/

/-- The result over a batch of 4 × 4096 rows: entry `(a, s, q)` is output unit `q` of row `(a, s)` of `x`; unit `q`'s
    weights are row `q` of `W`. -/
def result (x : (⟨3, ![4, 4096, 4096]⟩ : Shape).Idx → EReal) (W : (⟨2, ![4096, 4096]⟩ : Shape).Idx → EReal)
    (b γ β : (⟨1, ![4096]⟩ : Shape).Idx → EReal) : (⟨3, ![4, 4096, 4096]⟩ : Shape).Idx → EReal := fun i =>
  unit (fun k => x (ix3 (i 0) (i 1) k)) (fun k => γ (ix1 k)) (fun k => β (ix1 k)) (fun k => W (ix2 (i 2) k)) (b (ix1 (i 2)))

theorem result_apply (x : (⟨3, ![4, 4096, 4096]⟩ : Shape).Idx → EReal) (W : (⟨2, ![4096, 4096]⟩ : Shape).Idx → EReal)
    (b γ β : (⟨1, ![4096]⟩ : Shape).Idx → EReal) (a : Fin 4) (s q : Fin 4096) :
    result x W b γ β (ix3 a s q)
      = unit (fun k => x (ix3 a s k)) (fun k => γ (ix1 k)) (fun k => β (ix1 k)) (fun k => W (ix2 q k)) (b (ix1 q)) := rfl

/-- The same over any number `n` of rows laid out as an `[n, 4096]` matrix: entry `(p, q)` is output unit `q` of row `p`. -/
def rows {n : ℕ} (X : (⟨2, ![n, 4096]⟩ : Shape).Idx → EReal) (W : (⟨2, ![4096, 4096]⟩ : Shape).Idx → EReal)
    (b γ β : (⟨1, ![4096]⟩ : Shape).Idx → EReal) : (⟨2, ![n, 4096]⟩ : Shape).Idx → EReal := fun i =>
  unit (fun k => X (ix2 (i 0) k)) (fun k => γ (ix1 k)) (fun k => β (ix1 k)) (fun k => W (ix2 (i 1) k)) (b (ix1 (i 1)))

theorem rows_apply {n : ℕ} (X : (⟨2, ![n, 4096]⟩ : Shape).Idx → EReal) (W : (⟨2, ![4096, 4096]⟩ : Shape).Idx → EReal)
    (b γ β : (⟨1, ![4096]⟩ : Shape).Idx → EReal) (p : Fin n) (q : Fin 4096) :
    rows X W b γ β (ix2 p q)
      = unit (fun k => X (ix2 p k)) (fun k => γ (ix1 k)) (fun k => β (ix1 k)) (fun k => W (ix2 q k)) (b (ix1 q)) := rfl

/-- Two entries of two such arrays are equal as soon as what each reads is: the row, the weight row, the bias entry, and
    the gain and shift vectors. -/
theorem rows_congr {n n' : ℕ} {X : (⟨2, ![n, 4096]⟩ : Shape).Idx → EReal} {X' : (⟨2, ![n', 4096]⟩ : Shape).Idx → EReal}
    {W W' : (⟨2, ![4096, 4096]⟩ : Shape).Idx → EReal} {b b' γ γ' β β' : (⟨1, ![4096]⟩ : Shape).Idx → EReal}
    (i : (⟨2, ![n, 4096]⟩ : Shape).Idx) (i' : (⟨2, ![n', 4096]⟩ : Shape).Idx)
    (hX : ∀ k : Fin 4096, X (ix2 (i 0) k) = X' (ix2 (i' 0) k)) (hW : ∀ k : Fin 4096, W (ix2 (i 1) k) = W' (ix2 (i' 1) k))
    (hb : b (ix1 (i 1)) = b' (ix1 (i' 1))) (hγ : ∀ k : Fin 4096, γ (ix1 k) = γ' (ix1 k))
    (hβ : ∀ k : Fin 4096, β (ix1 k) = β' (ix1 k)) :
    rows X W b γ β i = rows X' W' b' γ' β' i' := by
  unfold rows
  simp only [hX, hW, hb, hγ, hβ]

end Cert.NormLinear

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.TileStages.lean ====
/-
  The kernel body's value, stage by stage, read at one entry.

  The body works on a tile of 64 rows. Its stored value is the composition below of the tile `x`, the gain `g`, the shift
  `be`, the weight matrix `w` (held in a narrower float format, which on the extended reals is the same number) and the
  bias `b`. Reductions along the features come back as a vector over the rows and are re-laid as a 64 × 1 column; a column
  is spread along the features by reading its one entry of the row; a vector over the features is re-laid as a 1 × 4096
  row and spread over the rows by reading its entry of the feature. The matrix product contracts BOTH operands' second
  axis — the tile's rows against the weight matrix's rows — starting from the zero array, so entry `(p, q)` is the sum
  over the features of the normalised row `p` against weight row `q`.

  Read at `(p, q)`, the composition is output unit `q` of row `p` of the tile: the specification over 64 rows.
-/
import proofs.«127171_j12352325944137_1_alg».proof.Proof.Gen.KernelIdeal.Skeleton
import proofs.«127171_j12352325944137_1_alg».proof.Proof.RowSpec
import proofs.«127171_j12352325944137_1_alg».proof.Proof.LibIndexReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.NormLinear Cert.Lib.IndexReads
open Idealize.ShloMosaic Idealize.ShloMosaic.ValueIdx

/-! ## Sums along the features, kept as a column -/

/-- The sum of every row of a tile, as a 64 × 1 column. -/
def rowSums (v : FVec Ideal S64x4096 .f32) : FVec Ideal S64x1 .f32 :=
  shapeCast S64x1 (multiReduction .add [1] S64 v 0x00000000#32 reduces_S64x4096_S64 (.inl rfl) rfl) shapeCasts_S64_S64x1

/-- The column's entry of row `p` is the sum of row `p`: the re-laying keeps row `p` at position `p`, and the reduced
    index `p` with feature `k` put back on the summed axis is `(p, k)`. -/
theorem rowSums_apply (v : FVec Ideal S64x4096 .f32) (p : Fin 64) (u : Fin 1) :
    rowSums v (ix2 p u) = ∑ k : Fin 4096, v (ix2 p k) := by
  unfold rowSums
  refine (shapeCast_apply _ shapeCasts_S64_S64x1 (ix2 p u) (ix1 p) ?_).trans ?_
  · rw [Shape.rowMajor_val_two, Shape.rowMajor_val_one]
    show p.val = p.val * 1 + u.val
    have := u.isLt
    omega
  · refine (Ideal.multiReduction_add_single v 0x00000000#32 reduces_S64x4096_S64 (.inl rfl) rfl (ix1 p)).trans ?_
    show ∑ k : Fin 4096, v (reduces_S64x4096_S64.lift (ix1 p) k) = _
    refine Finset.sum_congr rfl fun k _ => congrArg v ?_
    funext d
    apply Fin.ext
    match d with
    | ⟨0, _⟩ => rfl
    | ⟨1, _⟩ => rfl

/-! ## The statistics of each row -/

/-- The column of row means: the row sums divided by 4096. -/
def meanCol (x : FVec Ideal S64x4096 .f32) : FVec Ideal S64x1 .f32 :=
  divf (rowSums x) (broadcast S64x1 (Scalar.ofBits .f32 0x45800000#32))

theorem meanCol_apply (x : FVec Ideal S64x4096 .f32) (p : Fin 64) (u : Fin 1) :
    meanCol x (ix2 p u) = mean (fun k => x (ix2 p k)) := by
  unfold meanCol
  rw [divf_apply, rowSums_apply]
  rfl

/-- The tile with each row's mean taken off. -/
def centredTile (x : FVec Ideal S64x4096 .f32) : FVec Ideal S64x4096 .f32 :=
  subf x (broadcastTo S64x4096 (meanCol x) broadcasts_S64x1_S64x4096)

theorem centredTile_apply (x : FVec Ideal S64x4096 .f32) (p : Fin 64) (k : Fin 4096) :
    centredTile x (ix2 p k) = centred (fun k => x (ix2 p k)) k := by
  unfold centredTile
  rw [subf_apply, broadcastTo_a1_ab_apply, meanCol_apply]
  rfl

/-- The column of scales: the reciprocal square root of each row's variance plus the small constant. -/
def scaleCol (x : FVec Ideal S64x4096 .f32) : FVec Ideal S64x1 .f32 :=
  rsqrt (addf (divf (rowSums (mulf (centredTile x) (centredTile x))) (broadcast S64x1 (Scalar.ofBits .f32 0x45800000#32)))
    (broadcast S64x1 (Scalar.ofBits .f32 0x3727C5AC#32)))

theorem scaleCol_apply (x : FVec Ideal S64x4096 .f32) (p : Fin 64) (u : Fin 1) :
    scaleCol x (ix2 p u) = scale (fun k => x (ix2 p k)) := by
  unfold scaleCol
  show Ideal.rsqrt (Ideal.div (rowSums (mulf (centredTile x) (centredTile x)) (ix2 p u)) width + eps) = _
  rw [rowSums_apply]
  simp only [mulf_apply, centredTile_apply]
  rfl

/-! ## Gain, shift and bias: a vector over the features spread over the rows -/

/-- A vector over the 4096 features, re-laid as one row and repeated on each of the 64 rows. -/
def overRows (g : FVec Ideal S4096 .f32) : FVec Ideal S64x4096 .f32 :=
  broadcastTo S64x4096 (shapeCast S1x4096 g shapeCasts_S4096_S1x4096) broadcasts_S1x4096_S64x4096

theorem overRows_apply (g : FVec Ideal S4096 .f32) (p : Fin 64) (k : Fin 4096) : overRows g (ix2 p k) = g (ix1 k) := by
  unfold overRows
  rw [broadcastTo_1b_ab_apply, shapeCast_a_1a_apply]

/-- The normalised tile: centred, scaled row by row, times the gain and plus the shift feature by feature. -/
def normedTile (x : FVec Ideal S64x4096 .f32) (g be : FVec Ideal S4096 .f32) : FVec Ideal S64x4096 .f32 :=
  addf (mulf (mulf (centredTile x) (broadcastTo S64x4096 (scaleCol x) broadcasts_S64x1_S64x4096)) (overRows g)) (overRows be)

theorem normedTile_apply (x : FVec Ideal S64x4096 .f32) (g be : FVec Ideal S4096 .f32) (p : Fin 64) (k : Fin 4096) :
    normedTile x g be (ix2 p k)
      = normed (fun k => x (ix2 p k)) (fun k => g (ix1 k)) (fun k => be (ix1 k)) k := by
  unfold normedTile
  rw [addf_apply, mulf_apply, mulf_apply, centredTile_apply, broadcastTo_a1_ab_apply, scaleCol_apply, overRows_apply,
    overRows_apply]
  rfl

/-! ## The linear layer on the tile -/

/-- The tile's product with the weight matrix, both contracting their second axis, from the zero array: entry `(p, q)` is
    the sum over the features of row `p` of the left operand against ROW `q` of the right. -/
theorem product_apply (A : FVec Ideal S64x4096 .bf16) (B : FVec Ideal S4096x4096 .bf16) (p : Fin 64) (q : Fin 4096) :
    matmul dot_S64x4096_S4096x4096_S64x4096_1_1_0_0_n_n none A B (constant (F := Ideal) S64x4096 .f32 0x00000000#32) (ix2 p q)
      = ∑ k : Fin 4096, A (ix2 p k) * B (ix2 q k) :=
  matmul_nt_apply dot_S64x4096_S4096x4096_S64x4096_1_1_0_0_n_n_wf none A B p q

/-- What the body stores, as a function of the (same-shape re-laid) tile and the four parameters. -/
def outTile (x : FVec Ideal S64x4096 .f32) (g be : FVec Ideal S4096 .f32) (w : FVec Ideal S4096x4096 .bf16)
    (b : FVec Ideal S4096 .f32) : FVec Ideal S64x4096 .f32 :=
  maximumf
    (addf
      (matmul dot_S64x4096_S4096x4096_S64x4096_1_1_0_0_n_n none (truncf .bf16 (normedTile x g be) bitsLt_bf16_f32)
        (shapeCast S4096x4096 w shapeCasts_S4096x4096_S4096x4096) (constant (F := Ideal) S64x4096 .f32 0x00000000#32))
      (overRows b))
    (broadcast S64x4096 (Scalar.ofBits .f32 0x00000000#32))

/-- The body's stored value is that composition: its lines, in order, are the stages above. -/
theorem pay_eq (x : FVec Ideal S64x4096 .f32) (g be : FVec Ideal S4096 .f32) (w : FVec Ideal S4096x4096 .bf16)
    (b : FVec Ideal S4096 .f32) :
    k0_pay1 (F := Ideal) x g be w b = outTile (shapeCast S64x4096 x shapeCasts_S64x4096_S64x4096) g be w b := rfl

/-- Read at `(p, q)`, the stored tile is output unit `q` of row `p`: the specification over the tile's 64 rows. The
    change of float format before the product and the same-shape re-layings are identities. -/
theorem pay_rows (x : FVec Ideal S64x4096 .f32) (g be : FVec Ideal S4096 .f32) (w : FVec Ideal S4096x4096 .bf16)
    (b : FVec Ideal S4096 .f32) :
    k0_pay1 (F := Ideal) x g be w b = rows (n := 64) x w b g be := by
  rw [pay_eq, shapeCast_self]
  funext i
  obtain ⟨p, q, rfl⟩ : ∃ (p : Fin 64) (q : Fin 4096), i = ix2 p q := ⟨i 0, i 1, eq_ix2 i⟩
  rw [rows_apply]
  unfold outTile
  rw [maximumf_apply, addf_apply, product_apply, overRows_apply, shapeCast_self]
  simp only [truncf_apply, normedTile_apply]
  rfl

end Cert.KernelIdeal.Tile

end
-- ==== Proof.BlocksToArray.lean ====
/-
  From the tiles to the whole array.

  The kernel runs over 256 grid points. Point `t` is given rows `64 t … 64 t + 63` of the 16384 × 4096 activations, the
  whole weight matrix, and the whole bias, gain and shift vectors, and writes back rows `64 t … 64 t + 63` of the result.
  What it writes is the specification over its 64 rows; since that specification treats every row by itself, the written
  tile is exactly block `t` of the specification over all 16384 rows of the arrays the kernel is launched on. Row `r` lies
  in the block of point `r / 64`, so the 256 blocks cover the result, which therefore IS that specification.

  The relations between the launch's index maps (which block of each operand a point is given) are decided once over the
  256 points; a block's element sits at block index × block size + its coordinate inside the block.
-/
import proofs.«127171_j12352325944137_1_alg».proof.Proof.Gen.KernelIdeal.Frame
import proofs.«127171_j12352325944137_1_alg».proof.Proof.TileStages
import Idealize.ShloMosaic.Lib.Pipeline.Value

noncomputable section

namespace Cert.KernelIdeal.Blocks

open Cert.KernelIdeal Cert.KernelIdeal.Gen Cert.KernelIdeal.Tile Cert.NormLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- Which block of each operand point `t` is given: block `t` of the rows of the activations and of the result, and the
    one whole block of the weights, the bias, the gain and the shift. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-! ## What each operand's block holds, where the result's block says -/

/-- Row `j 0` of the tile point `t` is given is the row of the activations that the result's block puts `j` on. -/
theorem tile_row (c : Dev nD) (t : Fin cfg0.N) (j : S64x4096.Idx) (k : Fin 4096) :
    iblk m c 0 t (ix2 (j 0) k)
      = (V m c main_v0 : S16384x4096.Idx → EReal) (ix2 ((((cfg0.win 5).blk t).view.emb j) 0) k) := by
  obtain ⟨e00, e01, -, -, -, -, -, e50, -⟩ := idx_facts t
  show (V m c main_v0 : S16384x4096.Idx → EReal) (((cfg0.win 0).blk t).view.emb (ix2 (j 0) k)) = _
  refine congrArg (V m c main_v0 : S16384x4096.Idx → EReal) ?_
  funext a
  apply Fin.ext
  match a with
  | ⟨0, _⟩ =>
    show win0_0.index t (0 : Fin 2) * 64 + 1 * (j 0).val = win0_5.index t (0 : Fin 2) * 64 + 1 * (j 0).val
    rw [e00, e50]
  | ⟨1, _⟩ =>
    show win0_0.index t (1 : Fin 2) * 4096 + 1 * k.val = k.val
    rw [e01]; omega

/-- The weight row of output unit `j 1`: every point is given the whole weight matrix, and the result's block starts at
    column 0. -/
theorem weight_row (c : Dev nD) (t : Fin cfg0.N) (j : S64x4096.Idx) (k : Fin 4096) :
    iblk m c 1 t (ix2 (j 1) k)
      = (V m c main_v1 : S4096x4096.Idx → EReal) (ix2 ((((cfg0.win 5).blk t).view.emb j) 1) k) := by
  obtain ⟨-, -, e10, e11, -, -, -, -, e51⟩ := idx_facts t
  show (V m c main_v1 : S4096x4096.Idx → EReal) (((cfg0.win 1).blk t).view.emb (ix2 (j 1) k)) = _
  refine congrArg (V m c main_v1 : S4096x4096.Idx → EReal) ?_
  funext a
  apply Fin.ext
  match a with
  | ⟨0, _⟩ =>
    show win0_1.index t (0 : Fin 2) * 4096 + 1 * (j 1).val = win0_5.index t (1 : Fin 2) * 4096 + 1 * (j 1).val
    rw [e10, e51]
  | ⟨1, _⟩ =>
    show win0_1.index t (1 : Fin 2) * 4096 + 1 * k.val = k.val
    rw [e11]; omega

/-- The bias of output unit `j 1`. -/
theorem bias_entry (c : Dev nD) (t : Fin cfg0.N) (j : S64x4096.Idx) :
    iblk m c 2 t (ix1 (j 1))
      = (V m c main_arg2 : S4096.Idx → EReal) (ix1 ((((cfg0.win 5).blk t).view.emb j) 1)) := by
  obtain ⟨-, -, -, -, e2, -, -, -, e51⟩ := idx_facts t
  show (V m c main_arg2 : S4096.Idx → EReal) (((cfg0.win 2).blk t).view.emb (ix1 (j 1))) = _
  refine congrArg (V m c main_arg2 : S4096.Idx → EReal) ?_
  funext a
  apply Fin.ext
  match a with
  | ⟨0, _⟩ =>
    show win0_2.index t (0 : Fin 1) * 4096 + 1 * (j 1).val = win0_5.index t (1 : Fin 2) * 4096 + 1 * (j 1).val
    rw [e2, e51]

/-- The gain at feature `k`: every point is given the whole vector. -/
theorem gain_entry (c : Dev nD) (t : Fin cfg0.N) (k : Fin 4096) :
    iblk m c 3 t (ix1 k) = (V m c main_arg3 : S4096.Idx → EReal) (ix1 k) := by
  obtain ⟨-, -, -, -, -, e3, -, -, -⟩ := idx_facts t
  show (V m c main_arg3 : S4096.Idx → EReal) (((cfg0.win 3).blk t).view.emb (ix1 k)) = _
  refine congrArg (V m c main_arg3 : S4096.Idx → EReal) ?_
  funext a
  apply Fin.ext
  match a with
  | ⟨0, _⟩ =>
    show win0_3.index t (0 : Fin 1) * 4096 + 1 * k.val = k.val
    rw [e3]; omega

/-- The shift at feature `k`. -/
theorem shift_entry (c : Dev nD) (t : Fin cfg0.N) (k : Fin 4096) :
    iblk m c 4 t (ix1 k) = (V m c main_arg4 : S4096.Idx → EReal) (ix1 k) := by
  obtain ⟨-, -, -, -, -, -, e4, -, -⟩ := idx_facts t
  show (V m c main_arg4 : S4096.Idx → EReal) (((cfg0.win 4).blk t).view.emb (ix1 k)) = _
  refine congrArg (V m c main_arg4 : S4096.Idx → EReal) ?_
  funext a
  apply Fin.ext
  match a with
  | ⟨0, _⟩ =>
    show win0_4.index t (0 : Fin 1) * 4096 + 1 * k.val = k.val
    rw [e4]; omega

/-! ## The result array -/

/-- The specification over all 16384 rows of the arrays as the kernel finds them at launch. -/
abbrev whole (c : Dev nD) : S16384x4096.Idx → EReal :=
  rows (n := 16384) (V m c main_v0) (V m c main_v1) (V m c main_arg2) (V m c main_arg3) (V m c main_arg4)

/-- What point `t` writes back is block `t` of `whole`: the body's one store covers its buffer from offset zero, its
    loads read each operand's buffer whole, and the stored value is the specification over the tile's rows. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero zeros2]
  simp only [View.ld_unit_zero (S := S64x4096) zeros2, View.ld_unit_zero (S := S4096x4096) zeros2,
    View.ld_unit_zero (S := S4096) zeros1]
  rw [pay_rows]
  funext j
  exact rows_congr j (((cfg0.win 5).blk t).view.emb j) (tile_row m c t j) (weight_row m c t j) (bias_entry m c t j)
    (gain_entry m c t) (shift_entry m c t)

/-- An entry of the result lies in point `t`'s block iff each coordinate lies in the block's range on its axis. -/
theorem mem_blk (t : Fin cfg0.N) (i : S16384x4096.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v2).slice (win0_5.rect t)).set ↔ _
  rw [View.set_slice_whole, Rect.mem_set_unit]
  exact Iff.rfl

/-- Every entry of the result is written: row `r` by the point `r / 64`. -/
theorem cover (i : S16384x4096.Idx) :
    ∃ t : Fin cfg0.N, (cfg0.win 5).flush t = true ∧ i ∈ ((cfg0.win 5).blk t).view.set := by
  have hN : cfg0.N = 256 := N_0
  have hi0 : (i 0).val < 16384 := (i 0).isLt
  have hi1 : (i 1).val < 4096 := (i 1).isLt
  have ht : (i 0).val / 64 < cfg0.N := by rw [hN]; omega
  obtain ⟨-, -, -, -, -, -, -, e50, e51⟩ := idx_facts ⟨(i 0).val / 64, ht⟩
  refine ⟨⟨(i 0).val / 64, ht⟩, flush0_5 _, ?_⟩
  rw [mem_blk]
  intro a
  match a with
  | ⟨0, _⟩ =>
    show win0_5.index ⟨(i 0).val / 64, ht⟩ (0 : Fin 2) * 64 ≤ (i 0).val
      ∧ (i 0).val < win0_5.index ⟨(i 0).val / 64, ht⟩ (0 : Fin 2) * 64 + 64
    rw [e50]
    show (i 0).val / 64 * 64 ≤ (i 0).val ∧ (i 0).val < (i 0).val / 64 * 64 + 64
    omega
  | ⟨1, _⟩ =>
    show win0_5.index ⟨(i 0).val / 64, ht⟩ (1 : Fin 2) * 4096 ≤ (i 1).val
      ∧ (i 1).val < win0_5.index ⟨(i 0).val / 64, ht⟩ (1 : Fin 2) * 4096 + 4096
    rw [e51]
    omega

/-- So after the run the result array of the kernel is `whole`. -/
theorem final (c : Dev nD) : (dats m 0 c).arrAt 5 cfg0.N = whole m c :=
  (dats m 0 c).arrAt_eq_of_cover 5 (whole m c) (fun t _ => flushed_eq m c t) cover

end Cert.KernelIdeal.Blocks

end
-- ==== Proof.KernelRun.lean ====
/-
  The whole kernel program: the host lines around the launch, and its run.

  Before the launch the program re-lays the 4 × 4096 × 4096 input as the 16384 × 4096 matrix of all its rows (row
  `a · 4096 + s` is row `s` of batch `a`: the same position in row-major order) and changes the weight matrix's float
  format, which on the extended reals leaves every entry as it is. After the launch it re-lays the 16384 × 4096 result
  as 4 × 4096 × 4096. Since the specification treats each row by itself, grouping the rows into batches, computing row by
  row and un-grouping gives the specification over the batch: the program's result is `result` of its five arguments.
-/
import proofs.«127171_j12352325944137_1_alg».proof.Proof.Gen.KernelIdeal.Frame
import proofs.«127171_j12352325944137_1_alg».proof.Proof.BlocksToArray
import proofs.«127171_j12352325944137_1_alg».proof.Proof.LibIndexReads
import Idealize.ShloMosaic.Lib.Pipeline.Value
import Idealize.ShloMosaic.Lib.StableHlo.Run
import Idealize.ShloMosaic.PureOps.Ideal

noncomputable section

namespace Cert.KernelIdeal.Whole

open Cert.KernelIdeal Cert.KernelIdeal.Gen Cert.KernelIdeal.Blocks Cert.NormLinear Cert.Lib.IndexReads
open Idealize.ShloMosaic Idealize.ShloMosaic.TcCoe Idealize.SL.Sem Idealize.ShloMosaic.ValueIdx Idealize.ShloMosaic.StableHlo
open Idealize.ShloMosaic.Pipeline (Dat)

/-! ## Grouping rows into batches and back -/

/-- The specification over the 16384 rows of the flattened input, un-flattened, is the specification over the batch:
    entry `(a, s, q)` reads row `a · 4096 + s` of the flattened array, which is row `(a, s)` of the input. -/
theorem regroup (x : S4x4096x4096.Idx → EReal) (W : S4096x4096.Idx → EReal) (b γ β : S4096.Idx → EReal)
    (h1 : S4x4096x4096.ShapeCasts S16384x4096) (h2 : S16384x4096.ShapeCasts S4x4096x4096) :
    shapeCast S4x4096x4096 (rows (n := 16384) (shapeCast S16384x4096 x h1) W b γ β) h2 = result x W b γ β := by
  funext i
  obtain ⟨a, s, q, rfl⟩ : ∃ (a : Fin 4) (s q : Fin 4096), i = ix3 a s q := ⟨i 0, i 1, i 2, eq_ix3 i⟩
  have hr : a.val * 4096 + s.val < 16384 := by have := a.isLt; have := s.isLt; omega
  have hx : ∀ k : Fin 4096, shapeCast S16384x4096 x h1 (ix2 (⟨a.val * 4096 + s.val, hr⟩ : Fin 16384) k) = x (ix3 a s k) :=
    fun k => flatten_apply x h1 _ a s k rfl
  rw [unflatten_apply _ h2 (⟨a.val * 4096 + s.val, hr⟩ : Fin 16384) a s q rfl, rows_apply, result_apply]
  simp only [hx]

variable (m : (ℓ : Loc nD τ sig) → Buf (Elt Ideal) ℓ)

/-! ## The host lines before the launch -/

/-- The kernel is launched on the input re-laid as the matrix of its rows. -/
theorem entry_x (c : Dev nD) : (V m c main_v0 : S16384x4096.Idx → EReal)
    = shapeCast S16384x4096 (m ((c : Thread nD τ).loc main_arg0)) shapeCasts_S4x4096x4096_S16384x4096 := by
  show StableHlo.after hostOps0 (fun b => m (c, b)) (Proc.devRef .tc main_v0) = _
  after_results
  rfl

/-- And on the weight matrix itself: the change of float format is the identity on the extended reals. -/
theorem entry_w (c : Dev nD) : (V m c main_v1 : S4096x4096.Idx → EReal) = m ((c : Thread nD τ).loc main_arg1) := by
  show StableHlo.after hostOps0 (fun b => m (c, b)) (Proc.devRef .tc main_v1) = _
  after_results
  rfl

/-! ## The host line after the launch -/

/-- The program's result is the kernel's result array re-laid in batches. -/
theorem tail_eq (c : Dev nD) :
    (Pipeline.afterTail₀ cfgs (dats m) 0 (V0 m) [hostOps1] c main_v3 : S4x4096x4096.Idx → EReal)
      = shapeCast S4x4096x4096 ((dats m 0 c).arrAt 5 cfg0.N) shapeCasts_S16384x4096_S4x4096x4096 := by
  have hw : Pipeline.withArrays (cfgs 0).spec c (V0 m c) (fun w => (dats m 0 c).arrAt w (cfgs 0).N) (Proc.devRef .tc main_v2)
      = (dats m 0 c).arrAt 5 cfg0.N :=
    Pipeline.withArrays_arr spec0 launch0.win.arr_inj c (V0 m c) (fun w => (dats m 0 c).arrAt w cfg0.N) 5
  unfold Pipeline.afterTail₀
  show StableHlo.after hostOps1 _ (Proc.devRef .tc main_v3) = _
  after_results
  show shapeCast S4x4096x4096 (Pipeline.withArrays (cfgs 0).spec c (V0 m c) (fun w => (dats m 0 c).arrAt w (cfgs 0).N)
    (Proc.devRef .tc main_v2)) shapeCasts_S16384x4096_S4x4096x4096 = _
  rw [hw]

/-- So the program's result is the specification of its five arguments. -/
theorem out_eq (c : Dev nD) :
    (Pipeline.afterTail₀ cfgs (dats m) 0 (V0 m) [hostOps1] c main_v3 : S4x4096x4096.Idx → EReal)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, final]
  show shapeCast S4x4096x4096 (rows (n := 16384) (V m c main_v0) (V m c main_v1) (V m c main_arg2) (V m c main_arg3)
    (V m c main_arg4)) shapeCasts_S16384x4096_S4x4096x4096 = _
  rw [entry_x, entry_w, V_main_arg2, V_main_arg3, V_main_arg4]
  exact regroup _ _ _ _ _ _ _

/-! ## The run -/

/-- Every weakly fair execution of the kernel program terminates without a fault, with its result at the specification of
    the arguments and the arguments as launched: the frame run, with its post read at the result (the line after the
    launch) and at each argument (an array the launch stages and never writes back, or a buffer no line writes). -/
theorem run (ρ : Dev nD → PrngReg) :
    θ_run defs (onTc (τ := τ) (main (F := Ideal))) ⟨m, fun _ => 0, ρ⟩ (fun r => ∀ c : Dev nD,
      r.2.mem ((c.tc : Thread nD τ).loc main_v3)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Whole

end
-- ==== Proof.ReferenceRows.lean ====
/-
  The reference program, read entry by entry, computes the specification.

  The reference works on the input as a batch of 4 × 4096 rows. Going through its operations in order at a fixed row
  `(a, s)`: the sum along the features over 4096 is the row's mean (kept as a column, so every feature of the row reads the
  same entry); subtracting it gives the centred row; the sum of its squares over 4096 is the variance; the reciprocal
  square root of the variance plus the small constant is the scale; gain and shift, stored as vectors over the features
  and spread over all rows, act feature by feature; the contraction with the weight matrix along both operands' LAST axis
  pairs the normalised row with weight row `q`; the bias vector is spread over the rows; the maximum with zero closes.
  Each host sum starts from the zero word, which adds nothing.

  Every step is the generated reading of one operation at an index, followed by naming the index that reading produced
  by its coordinates.
-/
import proofs.«127171_j12352325944137_1_alg».proof.Proof.Gen.ReferenceIdeal.Read
import proofs.«127171_j12352325944137_1_alg».proof.Proof.RowSpec

noncomputable section

open scoped BigOperators

namespace Cert.ReferenceIdeal.Rows

open Cert.ReferenceIdeal Cert.ReferenceIdeal.Read Cert.NormLinear
open Idealize.ShloMosaic Idealize.ShloMosaic.ValueIdx

variable (x0 : (⟨S4x4096x4096, .f32⟩ : BufTy).Contents (Elt Ideal))

/-- The column of row means, at row `(a, s)`, holds that row's mean. -/
theorem mean_read (a : Fin 4) (s : Fin 4096) (u : Fin 1) :
    val_main_v3 (F := Ideal) x0 (ix3 a s u) = mean (fun k => x0 (ix3 a s k)) := by
  have e1 : idx_main_v1 (ix3 a s u) = ix2 a s :=
    funext fun d => Fin.ext (by match d with | ⟨0, _⟩ => rfl | ⟨1, _⟩ => rfl)
  have e0 : ∀ k : Fin 4096, idx_main_v0 (ix2 a s) k = ix3 a s k := fun k =>
    funext fun d => Fin.ext (by match d with | ⟨0, _⟩ => rfl | ⟨1, _⟩ => rfl | ⟨2, _⟩ => rfl)
  rw [val_main_v3_apply, val_main_v1_apply, e1, val_main_v0_apply, val_main_v2_apply, val_main_cst_0_apply,
    val_main_cst_apply]
  simp only [e0, Ideal.hostDivf_def, Ideal.ofBits_def, Ideal.ofBits_zero_f32, zero_add]
  rfl

/-- The input minus the spread-out column of means is the centred row (where the variance is taken). -/
theorem centred_read (a : Fin 4) (s k : Fin 4096) :
    val_main_v5 (F := Ideal) x0 (ix3 a s k) = centred (fun k => x0 (ix3 a s k)) k := by
  have e4 : idx_main_v4 (ix3 a s k) = ix3 a s (0 : Fin 1) :=
    funext fun d => Fin.ext (by match d with | ⟨0, _⟩ => rfl | ⟨1, _⟩ => rfl | ⟨2, _⟩ => rfl)
  rw [val_main_v5_apply, val_main_v4_apply, e4, mean_read]
  rfl

/-- The same subtraction, done a second time by the reference for the value that is scaled. -/
theorem centred_read' (a : Fin 4) (s k : Fin 4096) :
    val_main_v12 (F := Ideal) x0 (ix3 a s k) = centred (fun k => x0 (ix3 a s k)) k := by
  have e11 : idx_main_v11 (ix3 a s k) = ix3 a s (0 : Fin 1) :=
    funext fun d => Fin.ext (by match d with | ⟨0, _⟩ => rfl | ⟨1, _⟩ => rfl | ⟨2, _⟩ => rfl)
  rw [val_main_v12_apply, val_main_v11_apply, e11, mean_read]
  rfl

/-- The column of scales, at row `(a, s)`: the reciprocal square root of the row's variance plus the small constant. -/
theorem scale_read (a : Fin 4) (s : Fin 4096) (u : Fin 1) :
    val_main_v15 (F := Ideal) x0 (ix3 a s u) = scale (fun k => x0 (ix3 a s k)) := by
  have e8 : idx_main_v8 (ix3 a s u) = ix2 a s :=
    funext fun d => Fin.ext (by match d with | ⟨0, _⟩ => rfl | ⟨1, _⟩ => rfl)
  have e7 : ∀ k : Fin 4096, idx_main_v7 (ix2 a s) k = ix3 a s k := fun k =>
    funext fun d => Fin.ext (by match d with | ⟨0, _⟩ => rfl | ⟨1, _⟩ => rfl | ⟨2, _⟩ => rfl)
  rw [val_main_v15_apply, val_main_v14_apply, val_main_v10_apply, val_main_v8_apply, e8, val_main_v7_apply,
    val_main_v9_apply, val_main_cst_2_apply, val_main_v13_apply, val_main_cst_3_apply, val_main_cst_1_apply]
  simp only [e7, val_main_v6_apply, centred_read, Ideal.hostUnary_rsqrt_def, Ideal.addf_def, Ideal.hostDivf_def,
    Ideal.mulf_def, Ideal.ofBits_def, Ideal.ofBits_zero_f32, zero_add]
  rfl

/-- The normalised activations at `(a, s, k)`: the centred entry times the row's scale, times the gain at feature `k`,
    plus the shift at feature `k`. -/
theorem normed_read (x3 x4 : (⟨S4096, .f32⟩ : BufTy).Contents (Elt Ideal)) (a : Fin 4) (s k : Fin 4096) :
    val_main_v23 (F := Ideal) x0 x3 x4 (ix3 a s k)
      = normed (fun k => x0 (ix3 a s k)) (fun k => x3 (ix1 k)) (fun k => x4 (ix1 k)) k := by
  have e16 : idx_main_v16 (ix3 a s k) = ix3 a s (0 : Fin 1) :=
    funext fun d => Fin.ext (by match d with | ⟨0, _⟩ => rfl | ⟨1, _⟩ => rfl | ⟨2, _⟩ => rfl)
  have e19 : idx_main_v18 (idx_main_v19 (ix3 a s k)) = ix1 k :=
    funext fun d => Fin.ext (by match d with | ⟨0, _⟩ => rfl)
  have e22 : idx_main_v21 (idx_main_v22 (ix3 a s k)) = ix1 k :=
    funext fun d => Fin.ext (by match d with | ⟨0, _⟩ => rfl)
  rw [val_main_v23_apply, val_main_v20_apply, val_main_v17_apply, centred_read', val_main_v16_apply, e16, scale_read,
    val_main_v19_apply, val_main_v18_apply, e19, val_main_v22_apply, val_main_v21_apply, e22]
  rfl

/-- The reference's result is the specification of its five arguments: at `(a, s, q)` the contraction pairs the
    normalised row `(a, s)` with row `q` of the weights, the bias is read at `q`, and the maximum is with zero. -/
theorem result_read (x1 : (⟨S4096x4096, .f32⟩ : BufTy).Contents (Elt Ideal))
    (x2 x3 x4 : (⟨S4096, .f32⟩ : BufTy).Contents (Elt Ideal)) :
    val_main_v29 (F := Ideal) x0 x1 x2 x3 x4 = result x0 x1 x2 x3 x4 := by
  funext i
  obtain ⟨a, s, q, rfl⟩ : ∃ (a : Fin 4) (s q : Fin 4096), i = ix3 a s q := ⟨i 0, i 1, i 2, eq_ix3 i⟩
  have el : ∀ k : Fin 4096, lidx_main_v24 (ix3 a s q) k = ix3 a s k := fun k =>
    funext fun d => Fin.ext (by match d with | ⟨0, _⟩ => rfl | ⟨1, _⟩ => rfl | ⟨2, _⟩ => rfl)
  have er : ∀ k : Fin 4096, ridx_main_v24 (ix3 a s q) k = ix2 q k := fun k =>
    funext fun d => Fin.ext (by match d with | ⟨0, _⟩ => rfl | ⟨1, _⟩ => rfl)
  have e26 : idx_main_v25 (idx_main_v26 (ix3 a s q)) = ix1 q :=
    funext fun d => Fin.ext (by match d with | ⟨0, _⟩ => rfl)
  rw [val_main_v29_apply, val_main_v27_apply, val_main_v24_apply, val_main_v26_apply, val_main_v25_apply, e26,
    val_main_v28_apply, val_main_cst_4_apply, result_apply]
  simp only [el, er, normed_read]
  rfl

end Cert.ReferenceIdeal.Rows

end
-- ==== Proof.lean ====
/-
  Layer normalisation, a linear layer and a ReLU: the kernel and its reference compute the same extended reals.

  Both programs take a batch of 4 × 4096 rows of 4096 features, a 4096 × 4096 weight matrix whose ROWS are the output
  units, and bias, gain and shift vectors. Each row is normalised (mean off, scaled by the reciprocal square root of the
  variance plus a small constant, times the gain, plus the shift), each output unit is the normalised row against the
  unit's weight row plus the bias, and the result is clipped below at zero (Proof/RowSpec.lean writes this once).

  The reference does it on the whole batch with host operations; read entry by entry it is that function
  (Proof/ReferenceRows.lean). The kernel flattens the batch to 16384 rows, hands 64 rows at a time to a body that does the
  same arithmetic on its tile (Proof/TileStages.lean) — with the weight matrix and the normalised tile passed through a
  narrower float format, which on the extended reals changes nothing, and the product taken from a zero accumulator —,
  writes the 256 tiles side by side (Proof/BlocksToArray.lean) and un-flattens (Proof/KernelRun.lean). The two sides use
  the same three constants, word for word, and the same operations in the same order on every entry; the only
  differences are layout and tiling, so no algebraic law is needed and nothing depends on the inputs being finite.

  The three frames are the generated frame runs (for the reference, its generated run with the result dropped), and the
  idealised kernel is the kernel's own text read on the extended reals, so there is nothing for `preserves` to state.
-/
import proofs.«127171_j12352325944137_1_alg».proof.Defs
import proofs.«127171_j12352325944137_1_alg».proof.Proof.Gen.Kernel
import proofs.«127171_j12352325944137_1_alg».proof.Proof.Gen.Kernel.Skeleton
import proofs.«127171_j12352325944137_1_alg».proof.Proof.Gen.Kernel.Launch
import proofs.«127171_j12352325944137_1_alg».proof.Proof.Gen.Kernel.Points
import proofs.«127171_j12352325944137_1_alg».proof.Proof.Gen.Kernel.Frame
import proofs.«127171_j12352325944137_1_alg».proof.Proof.Gen.KernelIdeal
import proofs.«127171_j12352325944137_1_alg».proof.Proof.Gen.KernelIdeal.Skeleton
import proofs.«127171_j12352325944137_1_alg».proof.Proof.Gen.KernelIdeal.Launch
import proofs.«127171_j12352325944137_1_alg».proof.Proof.Gen.KernelIdeal.Points
import proofs.«127171_j12352325944137_1_alg».proof.Proof.Gen.KernelIdeal.Frame
import proofs.«127171_j12352325944137_1_alg».proof.Proof.Gen.ReferenceIdeal
import proofs.«127171_j12352325944137_1_alg».proof.Proof.Gen.ReferenceIdeal.Run
import proofs.«127171_j12352325944137_1_alg».proof.Proof.Gen.ReferenceIdeal.Read
import proofs.«127171_j12352325944137_1_alg».proof.Proof.Gen.Pre_finite_inputs
import proofs.«127171_j12352325944137_1_alg».proof.Proof.KernelRun
import proofs.«127171_j12352325944137_1_alg».proof.Proof.ReferenceRows
import Idealize.ShloMosaic.Adequacy
import Idealize.ShloMosaic.Init

noncomputable section

namespace Cert.Proof

open Idealize.ShloMosaic Idealize.SL.Sem

/-- The kernel program as printed runs to the end and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the five arguments, both programs end with the specification of those arguments in
    their result: the kernel by its run, the reference by its run read entry by entry. -/
theorem algebraic : Cert.algebraic_KernelIdeal_ReferenceIdeal := by
  intro m ρ m' ρ' _ hagree
  refine ⟨fun c => Cert.NormLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.Rows.result_read, (hagree c).1,
    (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
